-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S_ : Shape := ⟨0, ![]⟩

class Facts : Prop where
  bcast_S_S1x2048x4096 : S_.BroadcastsInDim S1x2048x4096 (![] : Fin 0 → Fin S1x2048x4096.rank)
  reducesTo_S1x2048x4096_S_d0_1_2 : S1x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_arg4 : FVec F S4096x14336 .f32) (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  let main_v19 : FVec F S4096x14336 .f32 := Host.absf main_arg4
  let main_cst_6 : FVec F S_ .f32 := constant S_ .f32 0x7F800000#32
  let main_v20 : FVec F S4096x14336 .f32 := broadcastInDim S4096x14336 ![] bcast_S_S4096x14336 main_cst_6
  let main_v21 : IVec S4096x14336 1 := cmpf .olt main_v19 main_v20
  let main_c_7 : IVec S_ 1 := constantI S_ 1 1#1
  let main_v22 : IVec S_ 1 := (fun x v => Host.reduce IntOp.andi x v reducesTo_S4096x14336_S_d0_1 h_S_) main_v21 main_c_7
  let main_v23 : IVec S_ 1 := andi main_v18 main_v22
  main_v23

def fn {F : FTy → Type} [FloatOps F] (main_arg0 : FVec F S1x2048x4096 .f32) (main_arg1 : FVec F S4096 .f32) (main_arg2 : FVec F S14336x4096 .f32) (main_arg3 : FVec F S14336x4096 .f32) (main_arg4 : FVec F S4096x14336 .f32) : IVec S_ 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_c : IVec S_ 1 := constantI S_ 1 1#1
  let main_v3 : IVec S_ 1 := (fun x v => Host.reduce IntOp.andi x v reducesTo_S1x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_arg4 main_v13 main_v16
-- ==== Kernel.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S2048x4096 : Shape := ⟨2, ![2048, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S1024x4096 : Shape := ⟨2, ![1024, 4096]⟩
abbrev S256x4096 : Shape := ⟨2, ![256, 4096]⟩
abbrev S4096x256 : Shape := ⟨2, ![4096, 256]⟩
abbrev S1024x256 : Shape := ⟨2, ![1024, 256]⟩

abbrev nBuf : Space → Nat
  | .hbm => 10
  | .vmem => 13
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S2048x4096, .f32⟩
  | .hbm, ⟨6, _⟩ => ⟨S1x4096, .f32⟩
  | .hbm, ⟨7, _⟩ => ⟨S2048x4096, .bf16⟩
  | .hbm, ⟨8, _⟩ => ⟨S2048x4096, .f32⟩
  | .hbm, ⟨9, _⟩ => ⟨S1x2048x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S4096x256, .f32⟩
  | .local _ .vmem, ⟨11, _⟩ => ⟨S4096x256, .f32⟩
  | .local _ .vmem, ⟨12, _⟩ => ⟨S1024x4096, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 56], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  shapeCasts_S1x2048x4096_S2048x4096 : S1x2048x4096.ShapeCasts S2048x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S2048x4096_S1x2048x4096 : S2048x4096.ShapeCasts S1x2048x4096
  dot_S1024x4096_S256x4096_S1024x256_1_1_0_0_n_n_wf : DotDims.WF S1024x4096 S256x4096 S1024x256 [1] [1] [0] [0] [] []
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2048x4096.size a
  hwx0_2 : ∀ i : grid0.Coords, EltTy.bits .bf16 = 32 ∨ (Rect.block (s := S2048x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S2048x4096.size a
  hwx1_0 : ∀ i : grid1.Coords, EltTy.bits .bf16 = 32 ∨ (Rect.block (s := S2048x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S14336x4096.size a
  hwx1_1 : ∀ i : grid1.Coords, EltTy.bits .f32 = 32 ∨ (Rect.block (s := S14336x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S14336x4096.size a
  hwx1_2 : ∀ i : grid1.Coords, EltTy.bits .f32 = 32 ∨ (Rect.block (s := S14336x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x14336.size a
  hwx1_3 : ∀ i : grid1.Coords, EltTy.bits .f32 = 32 ∨ (Rect.block (s := S4096x14336) S4096x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S2048x4096.size a
  hwx1_4 : ∀ i : grid1.Coords, EltTy.bits .f32 = 32 ∨ (Rect.block (s := S2048x4096) S1024x4096.size (cc1_transform_4 i) (hinb1_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x4096.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x2048x4096 : Shape := ⟨3, ![1, 2048, 4096]⟩
abbrev S4096 : Shape := ⟨1, ![4096]⟩
abbrev S14336x4096 : Shape := ⟨2, ![14336, 4096]⟩
abbrev S4096x14336 : Shape := ⟨2, ![4096, 14336]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S1x2048x14336 : Shape := ⟨3, ![1, 2048, 14336]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S1x2048x4096, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x4096, .f32⟩
  | .hbm, ⟨17, _⟩ => ⟨S1x2048x4096, .f32⟩
  | .hbm, ⟨18, _⟩ => ⟨S1x1x4096, .f32⟩
  | .hbm, ⟨19, _⟩ => ⟨S1x2048x4096, .f32⟩
  | .hbm, ⟨20, _⟩ => ⟨S1x2048x4096, .f32⟩
  | .hbm, ⟨21, _⟩ => ⟨S1x2048x14336, .f32⟩
  | .hbm, ⟨22, _⟩ => ⟨S1x2048x14336, .f32⟩
  | .hbm, ⟨23, _⟩ => ⟨S1x2048x14336, .f32⟩
  | .hbm, ⟨24, _⟩ => ⟨S1x2048x14336, .f32⟩
  | .hbm, ⟨25, _⟩ => ⟨S_, .f32⟩
  | .hbm, ⟨26, _⟩ => ⟨S1x2048x14336, .f32⟩
  | .hbm, ⟨27, _⟩ => ⟨S1x2048x14336, .f32⟩
  | .hbm, ⟨28, _⟩ => ⟨S_, .f32⟩
  | .hbm, ⟨29, _⟩ => ⟨S1x2048x14336, .f32⟩
  | .hbm, ⟨30, _⟩ => ⟨S1x2048x14336, .f32⟩
  | .hbm, ⟨31, _⟩ => ⟨S1x2048x14336, .f32⟩
  | .hbm, ⟨32, _⟩ => ⟨S1x2048x14336, .f32⟩
  | .hbm, ⟨33, _⟩ => ⟨S1x2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  reducesTo_S1x2048x4096_S1x2048_d2 : S1x2048x4096.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x4096_0_1_2 : S1x2048x1.BroadcastsInDim S1x2048x4096 (![0, 1, 2] : Fin 3 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  bcast_S_S1x2048x14336 : S_.BroadcastsInDim S1x2048x14336 (![] : Fin 0 → Fin S1x2048x14336.rank)
  dot_S1x2048x4096_S14336x4096_S1x2048x14336_2_1_01_0_n_n_wf : DotDims.WF S1x2048x4096 S14336x4096 S1x2048x14336 [2] [1] [0, 1] [0] [] []
  dot_S1x2048x14336_S4096x14336_S1x2048x4096_2_1_01_0_n_n_wf : DotDims.WF S1x2048x14336 S4096x14336 S1x2048x4096 [2] [1] [0, 1] [0] [] []

variable [Facts₀]

def dot_S1x2048x4096_S14336x4096_S1x2048x14336_2_1_01_0_n_n : DotDims S1x2048x4096 S14336x4096 S1x2048x14336 where
  lhsContracting := [2]
  rhsContracting := [1]
  lhsNonContracting := [0, 1]
  rhsNonContracting := [0]
  lhsBatch := []
  rhsBatch := []
  wf := dot_S1x2048x4096_S14336x4096_S1x2048x14336_2_1_01_0_n_n_wf
def dot_S1x2048x14336_S4096x14336_S1x2048x4096_2_1_01_0_n_n : DotDims S1x2048x14336 S4096x14336 S1x2048x4096 where
  lhsContracting := [2]
  rhsContracting := [1]
  lhsNonContracting := [0, 1]
  rhsNonContracting := [0]
  lhsBatch := []
  rhsBatch := []
  wf := dot_S1x2048x14336_S4096x14336_S1x2048x4096_2_1_01_0_n_n_wf

class Facts : Prop extends Facts₀ where

variable [Facts]
-- ==== Proof.Spec.lean ====
/-
  The mathematics of the certificate, with no program in sight.

  A row `x` of 4096 entries is normalized to `x k · (Σ_q x_q² / 4096 + ε)^(-1/2) · w k`; a normalized row is sent
  through the gated layer: for every hidden unit `i`, `g_i = Σ_k row_k · G_{i,k}`, `u_i = Σ_k row_k · U_{i,k}`, the
  hidden value is `g_i · logistic(g_i) · u_i`, and output entry `h` is `Σ_i hidden_i · D_{h,i}`.

  The one law between the two programs: a sum over the 14336 hidden units is the sum, over 56 consecutive blocks of
  256 units, of the blocks' sums. Addition of extended reals is commutative and associative at the infinities
  too, so no finiteness is asked.
-/
import Idealize.ShloMosaic.PureOps.Ideal
import Idealize.ShloMosaic.PureOps.Ideal.Laws
import Idealize.ShloMosaic.Lib.ValueIdx

noncomputable section

namespace Cert.MlpSpec

open Idealize.ShloMosaic Idealize.ShloMosaic.ValueIdx

/-- A rank-2 array of extended reals. -/
abbrev Arr2 (a b : ℕ) : Type := (⟨2, ![a, b]⟩ : Shape).Idx → EReal

/-- The divisor 4096 and the epsilon of the normalization: the same two f32 words in both programs. -/
abbrev cDim : EReal := Ideal.ofBits .f32 0x45800000#32
abbrev cEps : EReal := Ideal.ofBits .f32 0x3727C5AC#32

/-- The f32 word of 1.0 denotes 1. -/
theorem one_word : Ideal.ofBits .f32 0x3F800000#32 = 1 := IdealRules.sign_bit.ideal_onePat .f32

/-- The scale of a row whose squares sum to `ss`: `(ss / 4096 + ε)^(-1/2)`. -/
def rowScale (ss : EReal) : EReal := Ideal.rsqrt (Ideal.div ss cDim + cEps)

/-- Entry `k` of row `r` of `X`, normalized and weighted. -/
def normed {R : ℕ} (X : Arr2 R 4096) (w : Fin 4096 → EReal) (r : Fin R) (k : Fin 4096) : EReal :=
  X (ix2 r k) * rowScale (∑ q : Fin 4096, X (ix2 r q) * X (ix2 r q)) * w k

/-- The gate: `g · logistic g · u`. -/
def gated (g u : EReal) : EReal := g * Ideal.logistic g * u

/-- Hidden unit `i` of a row: both projections, gated. -/
def hiddenRow {I : ℕ} (row : Fin 4096 → EReal) (G U : Arr2 I 4096) (i : Fin I) : EReal :=
  gated (∑ k : Fin 4096, row k * G (ix2 i k)) (∑ k : Fin 4096, row k * U (ix2 i k))

/-- Output entry `h` of a row: the hidden units contracted with row `h` of `D`. -/
def downRow {I : ℕ} (row : Fin 4096 → EReal) (G U : Arr2 I 4096) (D : Arr2 4096 I) (h : Fin 4096) : EReal :=
  ∑ i : Fin I, hiddenRow row G U i * D (ix2 h i)

/-- Two functions of a rank-2 index that agree at every pair of coordinates are equal. -/
theorem funext_ix2 {n0 n1 : ℕ} {α : Type} {f g : (⟨2, ![n0, n1]⟩ : Shape).Idx → α}
    (h : ∀ (a : Fin n0) (b : Fin n1), f (ix2 a b) = g (ix2 a b)) : f = g :=
  funext fun j => by rw [eq_ix2 j]; exact h _ _

/-- `normed` at row `r` reads row `r` only: a block whose row `r` is row `r'` of the whole array gives the whole
    array's value at `r'`. -/
theorem normed_congr {R R' : ℕ} (Xb : Arr2 R 4096) (X : Arr2 R' 4096) (wb w : Fin 4096 → EReal) (r : Fin R) (r' : Fin R')
    (hX : ∀ q, Xb (ix2 r q) = X (ix2 r' q)) (hw : ∀ q, wb q = w q) (k : Fin 4096) :
    normed Xb wb r k = normed X w r' k := by
  unfold normed
  rw [hX k, hw k]
  simp only [hX]

/-- The whole normalized array: every row of `X` normalized with the one row of weights `W`. -/
def normArr (X : Arr2 2048 4096) (W : Arr2 1 4096) : Arr2 2048 4096 :=
  fun i => normed X (fun q => W (ix2 (0 : Fin 1) q)) (i 0) (i 1)

/-- The gated layer applied to every row of a 2048 × 4096 array. -/
def mlpArr (N : Arr2 2048 4096) (G U : Arr2 14336 4096) (D : Arr2 4096 14336) : Arr2 2048 4096 :=
  fun i => downRow (fun k => N (ix2 (i 0) k)) G U D (i 1)

/-- Rows `256·s … 256·s + 255` of a weight matrix with 14336 rows. -/
def rowsBlk (G : Arr2 14336 4096) (s : Fin 56) : Arr2 256 4096 := fun y =>
  G (ix2 ⟨256 * s.val + (y 0).val, by have := s.isLt; have := idx2_lt0 y; omega⟩ (y 1))

/-- Columns `256·s … 256·s + 255` of the down matrix. -/
def colsBlk (D : Arr2 4096 14336) (s : Fin 56) : Arr2 4096 256 := fun y =>
  D (ix2 (y 0) ⟨256 * s.val + (y 1).val, by have := s.isLt; have := idx2_lt1 y; omega⟩)

/-- A rank-3 array of extended reals. -/
abbrev Arr3 (a b c : ℕ) : Type := (⟨3, ![a, b, c]⟩ : Shape).Idx → EReal

/-- The batch of one sequence read as its 2048 rows. -/
def flat (x : Arr3 1 2048 4096) : Arr2 2048 4096 := fun y => x (ix3 (0 : Fin 1) (y 0) (y 1))

/-- The weight vector by its coordinate. -/
def vec (w : (⟨1, ![4096]⟩ : Shape).Idx → EReal) : Fin 4096 → EReal := fun k => w (ix1 k)

/-- THE RESULT both programs compute: entry `(·, s, h)` is row `s` of `x`, normalized, through the gated layer,
    at output `h`. -/
def result (x : Arr3 1 2048 4096) (w : (⟨1, ![4096]⟩ : Shape).Idx → EReal) (G U : Arr2 14336 4096) (D : Arr2 4096 14336) :
    Arr3 1 2048 4096 := fun i => downRow (normed (flat x) (vec w) (i 1)) G U D (i 2)

/-- One grid point's addend: row `r` of row block `q` (1024 rows each), through hidden block `s`. -/
def blockOut (N : Arr2 2048 4096) (G U : Arr2 14336 4096) (D : Arr2 4096 14336) (q : Fin 2) (s : Fin 56) (r : Fin 1024)
    (h : Fin 4096) : EReal :=
  downRow (fun k => N (ix2 ⟨1024 * q.val + r.val, by have := q.isLt; have := r.isLt; omega⟩ k))
    (rowsBlk G s) (rowsBlk U s) (colsBlk D s) h

/-- A sum over `a · b` indices, block by block. -/
theorem sum_blocks {M : Type*} [AddCommMonoid M] (a b : ℕ) (f : Fin (a * b) → M) :
    ∑ i, f i = ∑ s : Fin a, ∑ j : Fin b, f (finProdFinEquiv (s, j)) := by
  rw [← Equiv.sum_comp finProdFinEquiv f, Fintype.sum_prod_type]

/-- THE LAW: a row's output over all 14336 hidden units is the sum of its outputs over the 56 blocks of 256. -/
theorem downRow_blocks (row : Fin 4096 → EReal) (G U : Arr2 14336 4096) (D : Arr2 4096 14336) (h : Fin 4096) :
    downRow row G U D h = ∑ s : Fin 56, downRow row (rowsBlk G s) (rowsBlk U s) (colsBlk D s) h := by
  unfold downRow
  rw [sum_blocks 56 256 (fun i : Fin 14336 => hiddenRow row G U i * D (ix2 h i))]
  refine Finset.sum_congr rfl fun s _ => Finset.sum_congr rfl fun j _ => ?_
  have e : (finProdFinEquiv (s, j) : Fin (56 * 256)) = (⟨256 * s.val + j.val, by have := s.isLt; have := j.isLt; omega⟩ : Fin 14336) :=
    Fin.ext (by show j.val + 256 * s.val = 256 * s.val + j.val; omega)
  rw [e]
  rfl

end Cert.MlpSpec

end
-- ==== Proof.RefRead.lean ====
/-
  The reference program's result, read one operation at a time, is `MlpSpec.result` of its arguments.

  Row `s`: the squares' sum over the row from the zero word (`0 + Σ`), divided by 4096, plus ε, `rsqrt`, times the
  entry, times the weight: `normed`. The two projections are `dot_general`s contracting the row's axis; the call of
  `silu` is `g · (1 / (1 + exp(-g)))`, which is `g · logistic g` once the word of 1.0 is read as 1; the last
  `dot_general` contracts the hidden axis: `downRow`.
-/
import proofs.«117751_j8169027797430_2_alg».proof.Proof.Gen.ReferenceIdeal.Read
import proofs.«117751_j8169027797430_2_alg».proof.Proof.Spec

noncomputable section

namespace Cert.ReferenceIdeal.RefValue

open Cert.ReferenceIdeal Cert.ReferenceIdeal.Read Cert.MlpSpec Idealize.ShloMosaic Idealize.ShloMosaic.ValueIdx

/-- The normalized, weighted input at `(·, s, k)`. -/
theorem v12_at (x0 : Arr3 1 2048 4096) (x1 : (⟨1, ![4096]⟩ : Shape).Idx → EReal) (u : Fin 1) (s : Fin 2048) (k : Fin 4096) :
    val_main_v12 (F := Ideal) x0 x1 (ix3 u s k) = normed (flat x0) (vec x1) s k := by
  obtain rfl : u = 0 := Subsingleton.elim _ _
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply]
  have e1 : ∀ q : Fin 4096, idx_main_v1 (idx_main_v2 (idx_main_v8 (ix3 (0 : Fin 1) s k))) q = ix3 (0 : Fin 1) s q :=
    fun q => funext fun a => Fin.ext (by match a with | ⟨0, _⟩ => rfl | ⟨1, _⟩ => rfl | ⟨2, _⟩ => rfl)
  have e2 : idx_main_v10 (idx_main_v11 (ix3 (0 : Fin 1) s k)) = ix1 k :=
    funext fun a => Fin.ext (by match a with | ⟨0, _⟩ => rfl)
  simp only [e1, e2]
  unfold normed rowScale
  show _ * Ideal.rsqrt (Ideal.div (Ideal.ofBits .f32 0x00000000#32 + _) _ + _) * _ = _
  rw [Ideal.ofBits_zero_f32, zero_add]
  rfl

/-- A projection of the normalized row onto row `i` of a weight matrix. -/
theorem v13_at (x0 : Arr3 1 2048 4096) (x1 : (⟨1, ![4096]⟩ : Shape).Idx → EReal) (x2 : Arr2 14336 4096) (u : Fin 1) (s : Fin 2048)
    (i : Fin 14336) :
    val_main_v13 (F := Ideal) x0 x1 x2 (ix3 u s i) = ∑ k : Fin 4096, normed (flat x0) (vec x1) s k * x2 (ix2 i k) := by
  rw [val_main_v13_apply]
  refine Finset.sum_congr rfl fun k _ => ?_
  have el : lidx_main_v13 (ix3 u s i) k = ix3 u s k :=
    funext fun a => Fin.ext (by match a with | ⟨0, _⟩ => rfl | ⟨1, _⟩ => rfl | ⟨2, _⟩ => rfl)
  have er : ridx_main_v13 (ix3 u s i) k = ix2 i k :=
    funext fun a => Fin.ext (by match a with | ⟨0, _⟩ => rfl | ⟨1, _⟩ => rfl)
  rw [el, er, v12_at]

theorem v14_at (x0 : Arr3 1 2048 4096) (x1 : (⟨1, ![4096]⟩ : Shape).Idx → EReal) (x3 : Arr2 14336 4096) (u : Fin 1) (s : Fin 2048)
    (i : Fin 14336) :
    val_main_v14 (F := Ideal) x0 x1 x3 (ix3 u s i) = ∑ k : Fin 4096, normed (flat x0) (vec x1) s k * x3 (ix2 i k) := by
  rw [val_main_v14_apply]
  refine Finset.sum_congr rfl fun k _ => ?_
  have el : lidx_main_v14 (ix3 u s i) k = ix3 u s k :=
    funext fun a => Fin.ext (by match a with | ⟨0, _⟩ => rfl | ⟨1, _⟩ => rfl | ⟨2, _⟩ => rfl)
  have er : ridx_main_v14 (ix3 u s i) k = ix2 i k :=
    funext fun a => Fin.ext (by match a with | ⟨0, _⟩ => rfl | ⟨1, _⟩ => rfl)
  rw [el, er, v12_at]

/-- Hidden unit `i` of row `s`: the gate applied to the two projections. -/
theorem v16_at (x0 : Arr3 1 2048 4096) (x1 : (⟨1, ![4096]⟩ : Shape).Idx → EReal) (x2 x3 : Arr2 14336 4096) (u : Fin 1) (s : Fin 2048)
    (i : Fin 14336) :
    val_main_v16 (F := Ideal) x0 x1 x2 x3 (ix3 u s i) = hiddenRow (normed (flat x0) (vec x1) s) x2 x3 i := by
  rw [val_main_v16_apply, val_main_v15_apply, val_main_call0_v5_apply, val_main_call0_v4_apply, val_main_call0_v3_apply,
    val_main_call0_v2_apply, val_main_call0_v1_apply, val_main_call0_v0_apply, v13_at, v14_at]
  simp only [val_main_call0_cst_apply, val_main_call0_cst_0_apply, Ideal.ofBits_def, one_word]
  rfl

/-- The reference's result at `(·, s, h)`. -/
theorem v17_at (x0 : Arr3 1 2048 4096) (x1 : (⟨1, ![4096]⟩ : Shape).Idx → EReal) (x2 x3 : Arr2 14336 4096) (x4 : Arr2 4096 14336)
    (u : Fin 1) (s : Fin 2048) (h : Fin 4096) :
    val_main_v17 (F := Ideal) x0 x1 x2 x3 x4 (ix3 u s h) = downRow (normed (flat x0) (vec x1) s) x2 x3 x4 h := by
  rw [val_main_v17_apply]
  unfold downRow
  refine Finset.sum_congr rfl fun k _ => ?_
  have el : lidx_main_v17 (ix3 u s h) k = ix3 u s k :=
    funext fun a => Fin.ext (by match a with | ⟨0, _⟩ => rfl | ⟨1, _⟩ => rfl | ⟨2, _⟩ => rfl)
  have er : ridx_main_v17 (ix3 u s h) k = ix2 h k :=
    funext fun a => Fin.ext (by match a with | ⟨0, _⟩ => rfl | ⟨1, _⟩ => rfl)
  rw [el, er, v16_at]

/-- The reference's last stage is `MlpSpec.result` of the arguments. -/
theorem v17_eq_result (x0 : Arr3 1 2048 4096) (x1 : (⟨1, ![4096]⟩ : Shape).Idx → EReal) (x2 x3 : Arr2 14336 4096) (x4 : Arr2 4096 14336) :
    val_main_v17 (F := Ideal) x0 x1 x2 x3 x4 = result x0 x1 x2 x3 x4 := by
  funext i
  obtain ⟨u, s, h, rfl⟩ : ∃ (u : Fin 1) (s : Fin 2048) (h : Fin 4096), i = ix3 u s h := ⟨i 0, i 1, i 2, eq_ix3 i⟩
  rw [v17_at]
  rfl

end Cert.ReferenceIdeal.RefValue

end
-- ==== Proof.Payload.lean ====
/-
  What each kernel body stores, read at one index, as the specification's functions of the blocks it loaded.

  The normalization body stores, at row `r` and column `k` of its 512-row block, `normed` of the block with the
  weight block's one row: the lane sum of the squares is the `Fin 4096`-indexed sum over the row, its keepdims
  column and the column's broadcast read the row's own scale, the weight row is broadcast over the rows.

  The gated body stores, at row `r` and output `h` of its 1024-row block, what the output buffer held there
  plus `downRow` of the row over the 256 hidden units of the point's weight blocks: each matmul contracts the
  last axis of both operands into a zero accumulator, so it is the plain sum of products.
-/
import proofs.«117751_j8169027797430_2_alg».proof.Proof.Gen.KernelIdeal.Skeleton
import proofs.«117751_j8169027797430_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Cert.MlpSpec Idealize.ShloMosaic Idealize.ShloMosaic.ValueIdx

/-! ## Two keepdims layouts read at an index -/

/-- A vector cast to a one-column matrix reads, at `(i, ·)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A one-column matrix broadcast over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The normalization body -/

/-- The lane sum of a 512 × 4096 block at row `r` is the sum over the row. -/
theorem laneSum_apply (v : FVec Ideal S512x4096 .f32) (r : Fin 512) :
    multiReduction .add [1] S512 v 0x00000000#32 reduces_S512x4096_S512 (.inl rfl) rfl (ix1 r)
      = ∑ q : Fin 4096, v (ix2 r q) := by
  show Ideal.reduceAdd reduces_S512x4096_S512 v (ix1 r) = _
  refine (Ideal.reduceAdd_single reduces_S512x4096_S512 v (ix1 r)).trans ?_
  exact Finset.sum_congr rfl fun q _ => congrArg v (funext fun a => Fin.ext (by
    match a with | ⟨0, _⟩ => rfl | ⟨1, _⟩ => rfl))

/-- What the normalization body stores at `(r, k)`. -/
theorem norm_pay (x0 : FVec Ideal S512x4096 .f32) (x1 : FVec Ideal S1x4096 .f32) (r : Fin 512) (k : Fin 4096) :
    k0_pay1 (F := Ideal) x0 x1 (ix2 r k) = normed (R := 512) x0 (fun q => x1 (ix2 (0 : Fin 1) q)) r k := by
  unfold k0_pay1
  simp only [shapeCast_self]
  show (x0 (ix2 r k) * broadcastTo S512x4096 _ broadcasts_S512x1_S512x4096 (ix2 r k))
      * broadcastTo S512x4096 x1 broadcasts_S1x4096_S512x4096 (ix2 r k) = _
  rw [broadcastTo_a1_ab_apply, broadcastTo_1b_ab_apply]
  show x0 (ix2 r k) * Ideal.rsqrt (Ideal.div (shapeCast S512x1 _ shapeCasts_S512_S512x1 (ix2 r (0 : Fin 1))) cDim + cEps)
      * x1 (ix2 (0 : Fin 1) k) = _
  rw [shapeCast_a_a1_apply, laneSum_apply]
  rfl

/-! ## The gated body -/

theorem proj_l0 (i : S1024x256.Idx) (q : dot_S1024x4096_S256x4096_S1024x256_1_1_0_0_n_n.contr.Idx) : (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl
theorem proj_l1 (i : S1024x256.Idx) (q : dot_S1024x4096_S256x4096_S1024x256_1_1_0_0_n_n.contr.Idx) : (dot_S1024x4096_S256x4096_S1024x256_1_1_0_0_n_n.lhsIdx i q 1).val = (q ⟨0, by decide⟩).val :=
  dot_S1024x4096_S256x4096_S1024x256_1_1_0_0_n_n.lhsIdx_val_of_single rfl i q
theorem proj_r0 (i : S1024x256.Idx) (q : dot_S1024x4096_S256x4096_S1024x256_1_1_0_0_n_n.contr.Idx) : (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl
theorem proj_r1 (i : S1024x256.Idx) (q : dot_S1024x4096_S256x4096_S1024x256_1_1_0_0_n_n.contr.Idx) : (dot_S1024x4096_S256x4096_S1024x256_1_1_0_0_n_n.rhsIdx i q 1).val = (q ⟨0, by decide⟩).val :=
  dot_S1024x4096_S256x4096_S1024x256_1_1_0_0_n_n.rhsIdx_val_of_single rfl i q

/-- The projection matmul into a zero accumulator, at row `r` and hidden unit `j` of the block: the sum over the
    4096 columns of the products of the two rows. -/
theorem proj_apply {φ₁ φ₂ : FTy} (l : FVec Ideal S1024x4096 φ₁) (w : FVec Ideal S256x4096 φ₂) (r : Fin 1024) (j : Fin 256) :
    matmul dot_S1024x4096_S256x4096_S1024x256_1_1_0_0_n_n none l w (constant S1024x256 .f32 0x00000000#32) (ix2 r j)
      = ∑ k : Fin 4096, l (ix2 r k) * w (ix2 j k) := by
  show FloatOps.matmul dot_S1024x4096_S256x4096_S1024x256_1_1_0_0_n_n none l w (constant S1024x256 .f32 0x00000000#32) (ix2 r j) = _
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r j) ((contrEquiv1 dot_S1024x4096_S256x4096_S1024x256_1_1_0_0_n_n 4096 rfl rfl).symm k) = ix2 r k := funext fun a => Fin.ext (by
    match a with
    | ⟨0, _⟩ => exact proj_l0 _ _
    | ⟨1, _⟩ => exact (proj_l1 _ _).trans hk)
  have er : dot_S1024x4096_S256x4096_S1024x256_1_1_0_0_n_n.rhsIdx (ix2 r j) ((contrEquiv1 dot_S1024x4096_S256x4096_S1024x256_1_1_0_0_n_n 4096 rfl rfl).symm k) = ix2 j k := funext fun a => Fin.ext (by
    match a with
    | ⟨0, _⟩ => exact proj_r0 _ _
    | ⟨1, _⟩ => exact (proj_r1 _ _).trans hk)
  rw [el, er]

theorem down_l0 (i : S1024x4096.Idx) (q : dot_S1024x256_S4096x256_S1024x4096_1_1_0_0_n_n.contr.Idx) : (dot_S1024x256_S4096x256_S1024x4096_1_1_0_0_n_n.lhsIdx i q 0).val = (i 0).val := by
  unfold DotDims.lhsIdx
  rw [dif_neg (show ¬(0 : Fin S1024x256.rank) ∈ dot_S1024x256_S4096x256_S1024x4096_1_1_0_0_n_n.lhsBatch by decide),
    dif_pos (show (0 : Fin S1024x256.rank) ∈ dot_S1024x256_S4096x256_S1024x4096_1_1_0_0_n_n.lhsNonContracting by decide)]
  rfl
theorem down_l1 (i : S1024x4096.Idx) (q : dot_S1024x256_S4096x256_S1024x4096_1_1_0_0_n_n.contr.Idx) : (dot_S1024x256_S4096x256_S1024x4096_1_1_0_0_n_n.lhsIdx i q 1).val = (q ⟨0, by decide⟩).val :=
  dot_S1024x256_S4096x256_S1024x4096_1_1_0_0_n_n.lhsIdx_val_of_single rfl i q
theorem down_r0 (i : S1024x4096.Idx) (q : dot_S1024x256_S4096x256_S1024x4096_1_1_0_0_n_n.contr.Idx) : (dot_S1024x256_S4096x256_S1024x4096_1_1_0_0_n_n.rhsIdx i q 0).val = (i 1).val := by
  unfold DotDims.rhsIdx
  rw [dif_neg (show ¬(0 : Fin S4096x256.rank) ∈ dot_S1024x256_S4096x256_S1024x4096_1_1_0_0_n_n.rhsBatch by decide),
    dif_pos (show (0 : Fin S4096x256.rank) ∈ dot_S1024x256_S4096x256_S1024x4096_1_1_0_0_n_n.rhsNonContracting by decide)]
  rfl
theorem down_r1 (i : S1024x4096.Idx) (q : dot_S1024x256_S4096x256_S1024x4096_1_1_0_0_n_n.contr.Idx) : (dot_S1024x256_S4096x256_S1024x4096_1_1_0_0_n_n.rhsIdx i q 1).val = (q ⟨0, by decide⟩).val :=
  dot_S1024x256_S4096x256_S1024x4096_1_1_0_0_n_n.rhsIdx_val_of_single rfl i q

/-- The down matmul into a zero accumulator, at row `r` and output `h`: the sum over the block's 256 hidden units. -/
theorem down_apply {φ₁ φ₂ : FTy} (l : FVec Ideal S1024x256 φ₁) (w : FVec Ideal S4096x256 φ₂) (r : Fin 1024) (h : Fin 4096) :
    matmul dot_S1024x256_S4096x256_S1024x4096_1_1_0_0_n_n none l w (constant S1024x4096 .f32 0x00000000#32) (ix2 r h)
      = ∑ k : Fin 256, l (ix2 r k) * w (ix2 h k) := by
  show FloatOps.matmul dot_S1024x256_S4096x256_S1024x4096_1_1_0_0_n_n none l w (constant S1024x4096 .f32 0x00000000#32) (ix2 r h) = _
  rw [Ideal.matmul_constant_zero_apply, ← Equiv.sum_comp (contrEquiv1 dot_S1024x256_S4096x256_S1024x4096_1_1_0_0_n_n 256 rfl rfl).symm]
  refine Finset.sum_congr rfl fun k _ => ?_
  have hk := contrEquiv1_symm_val dot_S1024x256_S4096x256_S1024x4096_1_1_0_0_n_n 256 rfl rfl k
  have el : dot_S1024x256_S4096x256_S1024x4096_1_1_0_0_n_n.lhsIdx (ix2 r h) ((contrEquiv1 dot_S1024x256_S4096x256_S1024x4096_1_1_0_0_n_n 256 rfl rfl).symm k) = ix2 r k := funext fun a => Fin.ext (by
    match a with
    | ⟨0, _⟩ => exact down_l0 _ _
    | ⟨1, _⟩ => exact (down_l1 _ _).trans hk)
  have er : dot_S1024x256_S4096x256_S1024x4096_1_1_0_0_n_n.rhsIdx (ix2 r h) ((contrEquiv1 dot_S1024x256_S4096x256_S1024x4096_1_1_0_0_n_n 256 rfl rfl).symm k) = ix2 h k := funext fun a => Fin.ext (by
    match a with
    | ⟨0, _⟩ => exact down_r0 _ _
    | ⟨1, _⟩ => exact (down_r1 _ _).trans hk)
  rw [el, er]

/-- What the gated body stores at `(r, h)`: what the output buffer held there, plus the row's output over the block's
    256 hidden units. -/
theorem gate_pay (x0 : FVec Ideal S1024x4096 .bf16) (x1 x2 : FVec Ideal S256x4096 .f32) (x3 : FVec Ideal S4096x256 .f32)
    (acc : FVec Ideal S1024x4096 .f32) (r : Fin 1024) (h : Fin 4096) :
    k1_pay2 (F := Ideal) x0 x1 x2 x3 acc (ix2 r h)
      = acc (ix2 r h) + downRow (I := 256) (fun k => x0 (ix2 r k)) x1 x2 x3 h := by
  unfold k1_pay2
  simp only [shapeCast_self]
  show acc (ix2 r h) + matmul (F := Ideal) dot_S1024x256_S4096x256_S1024x4096_1_1_0_0_n_n none _ _ (constant S1024x4096 .f32 0x00000000#32) (ix2 r h) = _
  rw [down_apply]
  unfold downRow hiddenRow gated
  refine congrArg (acc (ix2 r h) + ·) (Finset.sum_congr rfl fun j _ => ?_)
  show (matmul (F := Ideal) dot_S1024x4096_S256x4096_S1024x256_1_1_0_0_n_n none _ _ (constant S1024x256 .f32 0x00000000#32) (ix2 r j)
        * Ideal.logistic (matmul (F := Ideal) dot_S1024x4096_S256x4096_S1024x256_1_1_0_0_n_n none _ _ (constant S1024x256 .f32 0x00000000#32) (ix2 r j))
        * matmul (F := Ideal) dot_S1024x4096_S256x4096_S1024x256_1_1_0_0_n_n none _ _ (constant S1024x256 .f32 0x00000000#32) (ix2 r j))
      * x3 (ix2 h j) = _
  rw [proj_apply, proj_apply]
  rfl

end Cert.KernelIdeal.Pay

end
-- ==== Proof.NormValue.lean ====
/-
  The first pallas_call: the array it leaves is the row normalization of the array it reads.

  Its grid has four points; point `t` reads rows `512·t … 512·t + 511` of the input and the one row of weights, and
  writes the same rows of the output. The body's one store covers its output block, so what point `t` writes back is
  block `t` of `normArr` (a row's normalization reads that row only), and the four blocks cover the 2048 rows.
  Everything here is stated at the contents `V` the region is entered with, whatever they are.
-/
import proofs.«117751_j8169027797430_2_alg».proof.Proof.Gen.KernelIdeal.Frame
import proofs.«117751_j8169027797430_2_alg».proof.Proof.Payload

noncomputable section

namespace Cert.KernelIdeal.NormValue

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store covers the output block: the block ends holding the store's payload. -/
theorem out_eq (x0 : Vec Ideal S512x4096 .f32) (x1 : Vec Ideal S1x4096 .f32) :
    out0_2 (F := Ideal) x0 x1 = k0_pay1 x0 x1 := by
  unfold out0_2
  rw [View.canon_unit_zero hz]
  simp only [View.ld_unit_zero (S := S512x4096) hz, View.ld_unit_zero (S := S1x4096) hz]

/-- The printed index maps over the grid: the input and output blocks are row block `t`, the weights' block is the
    whole row. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (r : Fin 512) : 512 * t.val + r.val < 2048 := by
  have := lt_of_lt_of_eq t.isLt (show cfg0.N = 4 from N_0); have := r.isLt; omega

/-- Row `r` of point `t`'s input block is row `512·t + r` of the input array. -/
theorem blk0_read (c : Dev nD) (t : Fin cfg0.N) (r : Fin 512) (q : Fin 4096) :
    (iblk0 V c 0 t : Vec Ideal S512x4096 .f32) (ix2 r q) = V c main_v0 (ix2 ⟨512 * t.val + r.val, row_lt t r⟩ q) := by
  obtain ⟨e0, e1, -⟩ := idx_facts t
  unfold iblk0
  rw [View.read_apply]
  show V c main_v0 _ = V c main_v0 _
  refine congrArg (V c main_v0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 4096 + 1 * q.val = q.val; rw [e1]; omega

/-- The weights' block is the weights' one row. -/
theorem blk1_read (c : Dev nD) (t : Fin cfg0.N) (q : Fin 4096) :
    (iblk0 V c 1 t : Vec Ideal S1x4096 .f32) (ix2 (0 : Fin 1) q) = V c main_v1 (ix2 (0 : Fin 1) q) := by
  obtain ⟨-, -, e2, e3, -⟩ := idx_facts t
  unfold iblk0
  rw [View.read_apply]
  show V c main_v1 _ = V c main_v1 _
  refine congrArg (V c main_v1) (funext fun a => Fin.ext ?_)
  match a with
  | ⟨0, _⟩ => show win0_1.index t (0 : Fin 2) * 1 + 1 * 0 = 0; rw [e2]
  | ⟨1, _⟩ => show win0_1.index t (1 : Fin 2) * 4096 + 1 * q.val = q.val; rw [e3]; omega

/-- WHAT POINT `t` WRITES BACK is block `t` of the normalization of the arrays the region finds. -/
theorem flushed_eq (c : Dev nD) (t : Fin cfg0.N) :
    (dat0 V c).flushed 2 t = ((cfg0.win 2).blk t).view.read (Elt Ideal) (normArr (V c main_v0) (V c main_v1)) := by
  show (cfg0.win 2).cut (grid0.coords t) ((dat0 V c).after 2 t) = _
  rw [after0_2 V c t, out_eq]
  refine funext_ix2 (n0 := 512) (n1 := 4096) fun r k => ?_
  refine (Pay.norm_pay (iblk0 V c 0 t) (iblk0 V c 1 t) r k).trans ?_
  obtain ⟨-, -, -, -, e4, e5⟩ := idx_facts t
  rw [View.read_apply]
  have hi : ((cfg0.win 2).blk t).view.emb (ix2 r k) = (ix2 (⟨512 * t.val + r.val, row_lt t r⟩ : Fin 2048) k : S2048x4096.Idx) :=
    funext fun a => Fin.ext (by
      match a with
      | ⟨0, _⟩ => show win0_2.index t (0 : Fin 2) * 512 + 1 * r.val = 512 * t.val + r.val; rw [e4]; omega
      | ⟨1, _⟩ => show win0_2.index t (1 : Fin 2) * 4096 + 1 * k.val = k.val; rw [e5]; omega)
  rw [hi]
  exact normed_congr _ _ _ _ r _ (fun q => blk0_read V c t r q) (fun q => blk1_read V c t q) k

/-- An index of the output array is in point `t`'s block iff its row is among the point's 512. -/
theorem mem_blk (t : Fin cfg0.N) (i : S2048x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v2).slice (win0_2.rect t)).set ↔ _
  rw [View.set_slice_whole, Rect.mem_set_unit]
  exact Iff.rfl

/-- THE ARRAY the first call leaves: the normalization of what it found. -/
theorem final (c : Dev nD) : (dat0 V c).arrAt 2 cfg0.N = normArr (V c main_v0) (V c main_v1) :=
  (dat0 V c).arrAt_eq_of_cover 2 _ (fun t _ => flushed_eq V c t) fun i => by
    have hi0 : (i 0).val < 2048 := (i 0).isLt
    have hi1 : (i 1).val < 4096 := (i 1).isLt
    have hN : cfg0.N = 4 := N_0
    refine ⟨⟨(i 0).val / 512, by omega⟩, flush0_2 _, ?_⟩
    rw [mem_blk]
    obtain ⟨-, -, -, -, e4, e5⟩ := idx_facts ⟨(i 0).val / 512, by omega⟩
    intro a
    match a with
    | ⟨0, _⟩ =>
      show win0_2.index _ (0 : Fin 2) * 512 ≤ (i 0).val ∧ (i 0).val < win0_2.index _ (0 : Fin 2) * 512 + 512
      rw [e4]; dsimp only; omega
    | ⟨1, _⟩ =>
      show win0_2.index _ (1 : Fin 2) * 4096 ≤ (i 1).val ∧ (i 1).val < win0_2.index _ (1 : Fin 2) * 4096 + 4096
      rw [e5]; omega

end Cert.KernelIdeal.NormValue

end
-- ==== Proof.MlpValue.lean ====
/-
  The second pallas_call: the array it leaves is the gated layer applied to every row of the array it reads.

  Its grid is 2 × 56, the hidden axis fastest: point `n` is row block `n / 56` (1024 rows) and hidden block `n % 56`
  (256 units). The output block stays in its buffer along a run of 56 points: the first point of a run stores zeros
  and adds its block's contribution, every later point adds its own, and the last point's buffer is written back. So
  after the last point of run `q` the buffer holds, at `(r, h)`, `0 + Σ_{s<56}` of row `1024·q + r`'s output over hidden
  block `s` — which is the row's output over all 14336 hidden units (`MlpSpec.downRow_blocks`). The two runs' blocks
  cover the 2048 rows. Everything is stated at the contents `V` the region is entered with.
-/
import proofs.«117751_j8169027797430_2_alg».proof.Proof.Gen.KernelIdeal.Frame
import proofs.«117751_j8169027797430_2_alg».proof.Proof.Payload

noncomputable section

namespace Cert.KernelIdeal.MlpValue

open Cert.KernelIdeal Cert.KernelIdeal.Gen Cert.MlpSpec
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block of zeros the first point of a run stores. -/
theorem zero_at (i : S1024x4096.Idx) : k1_pay1 (F := Ideal) i = 0 := by
  show Ideal.ofBits .f32 0x00000000#32 = 0
  exact Ideal.ofBits_zero_f32

/-! ## What each case of the body leaves in the output buffer -/

/-- A point that is not the first of its run: the body's one covering store leaves its payload, of the input
    blocks and of what the buffer held. -/
theorem out_B (c : Dev nD) (i : grid1.Coords) (a2 : Memref sig .tc .vmem S1024x4096 .bf16) (h2 : a2.IsWhole) (a3 : Memref sig .tc .vmem S256x4096 .f32) (h3 : a3.IsWhole)
    (a4 : Memref sig .tc .vmem S256x4096 .f32) (h4 : a4.IsWhole) (a5 : Memref sig .tc .vmem S4096x256 .f32) (h5 : a5.IsWhole)
    (a6 : Memref sig .tc .vmem S1024x4096 .f32) (h6 : a6.IsWhole) (hc : ¬cond1_0 i)
    (x0 : Vec Ideal S1024x4096 .bf16) (x1 x2 : Vec Ideal S256x4096 .f32) (x3 : Vec Ideal S4096x256 .f32) (xo : Vec Ideal S1024x4096 .f32) :
    out1_B_4 c i a2 h2 a3 h3 a4 h4 a5 h5 a6 h6 hc x0 x1 x2 x3 xo = k1_pay2 x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz]
  simp only [View.readAt_eq_ld, h2.read_unread, h3.read_unread, h4.read_unread, h5.read_unread, h6.read_unread,
    View.ld_unit_zero (S := S1024x4096) hz, View.ld_unit_zero (S := S256x4096) hz, View.ld_unit_zero (S := S4096x256) hz]

/-- The first point of a run: the zeros are stored, read back, and the same payload is stored over them. -/
theorem out_A (c : Dev nD) (i : grid1.Coords) (a2 : Memref sig .tc .vmem S1024x4096 .bf16) (h2 : a2.IsWhole) (a3 : Memref sig .tc .vmem S256x4096 .f32) (h3 : a3.IsWhole)
    (a4 : Memref sig .tc .vmem S256x4096 .f32) (h4 : a4.IsWhole) (a5 : Memref sig .tc .vmem S4096x256 .f32) (h5 : a5.IsWhole)
    (a6 : Memref sig .tc .vmem S1024x4096 .f32) (h6 : a6.IsWhole) (hc : cond1_0 i)
    (x0 : Vec Ideal S1024x4096 .bf16) (x1 x2 : Vec Ideal S256x4096 .f32) (x3 : Vec Ideal S4096x256 .f32) :
    out1_A_4 c i a2 h2 a3 h3 a4 h4 a5 h5 a6 h6 hc x0 x1 x2 x3 = k1_pay2 x0 x1 x2 x3 (k1_pay1 (F := Ideal)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1024x4096) hz, View.readCov_unit_zero (S := S1024x4096) _ hz]
  simp only [View.readAt_eq_ld, h2.read_unread, h3.read_unread, h4.read_unread, h5.read_unread,
    View.ld_unit_zero (S := S1024x4096) hz, View.ld_unit_zero (S := S256x4096) hz, View.ld_unit_zero (S := S4096x256) hz]

/-! ## The blocks a point reads -/

theorem idx_facts : ∀ t : Fin cfg1.N,
    win1_0.index t (0 : Fin 2) = t.val / 56 ∧ win1_0.index t (1 : Fin 2) = 0
    ∧ win1_1.index t (0 : Fin 2) = t.val % 56 ∧ win1_1.index t (1 : Fin 2) = 0
    ∧ win1_2.index t (0 : Fin 2) = t.val % 56 ∧ win1_2.index t (1 : Fin 2) = 0
    ∧ win1_3.index t (0 : Fin 2) = 0 ∧ win1_3.index t (1 : Fin 2) = t.val % 56
    ∧ win1_4.index t (0 : Fin 2) = t.val / 56 ∧ win1_4.index t (1 : Fin 2) = 0 :=
  (by decide +kernel : ∀ t : Fin grid1.N, _)

theorem pt_lt (t : Fin cfg1.N) : t.val < 112 := lt_of_lt_of_eq t.isLt (show cfg1.N = 112 from N_1)

theorem row_lt (t : Fin cfg1.N) (r : Fin 1024) : 1024 * (t.val / 56) + r.val < 2048 := by
  have := pt_lt t; have := r.isLt; omega

/-- Row `r` of the point's block of the normalized array is row `1024·(t / 56) + r` of it. -/
theorem blk0_read (c : Dev nD) (t : Fin cfg1.N) (r : Fin 1024) (q : Fin 4096) :
    (iblk1 V c 0 t : Vec Ideal S1024x4096 .bf16) (ix2 r q) = V c main_v2 (ix2 ⟨1024 * (t.val / 56) + r.val, row_lt t r⟩ q) := by
  obtain ⟨e0, e1, -⟩ := idx_facts t
  unfold iblk1
  rw [View.read_apply]
  show V c main_v2 _ = V c main_v2 _
  refine congrArg (V c main_v2) (funext fun a => Fin.ext ?_)
  match a with
  | ⟨0, _⟩ => show win1_0.index t (0 : Fin 2) * 1024 + 1 * r.val = 1024 * (t.val / 56) + r.val; rw [e0]; omega
  | ⟨1, _⟩ => show win1_0.index t (1 : Fin 2) * 4096 + 1 * q.val = q.val; rw [e1]; omega

/-- The point's block of the gate weights is their row block `t % 56`. -/
theorem blk1_eq (c : Dev nD) (t : Fin cfg1.N) :
    (iblk1 V c 1 t : Vec Ideal S256x4096 .f32) = rowsBlk (V c main_arg2) ⟨t.val % 56, Nat.mod_lt _ (by decide)⟩ := by
  obtain ⟨-, -, e2, e3, -⟩ := idx_facts t
  refine funext_ix2 (n0 := 256) (n1 := 4096) fun j q => ?_
  unfold iblk1 rowsBlk
  rw [View.read_apply]
  show V c main_arg2 _ = V c main_arg2 _
  refine congrArg (V c main_arg2) (funext fun a => Fin.ext ?_)
  match a with
  | ⟨0, _⟩ => show win1_1.index t (0 : Fin 2) * 256 + 1 * j.val = 256 * (t.val % 56) + j.val; rw [e2]; omega
  | ⟨1, _⟩ => show win1_1.index t (1 : Fin 2) * 4096 + 1 * q.val = q.val; rw [e3]; omega

/-- The point's block of the up weights is their row block `t % 56`. -/
theorem blk2_eq (c : Dev nD) (t : Fin cfg1.N) :
    (iblk1 V c 2 t : Vec Ideal S256x4096 .f32) = rowsBlk (V c main_arg3) ⟨t.val % 56, Nat.mod_lt _ (by decide)⟩ := by
  obtain ⟨-, -, -, -, e4, e5, -⟩ := idx_facts t
  refine funext_ix2 (n0 := 256) (n1 := 4096) fun j q => ?_
  unfold iblk1 rowsBlk
  rw [View.read_apply]
  show V c main_arg3 _ = V c main_arg3 _
  refine congrArg (V c main_arg3) (funext fun a => Fin.ext ?_)
  match a with
  | ⟨0, _⟩ => show win1_2.index t (0 : Fin 2) * 256 + 1 * j.val = 256 * (t.val % 56) + j.val; rw [e4]; omega
  | ⟨1, _⟩ => show win1_2.index t (1 : Fin 2) * 4096 + 1 * q.val = q.val; rw [e5]; omega

/-- The point's block of the down weights is their column block `t % 56`. -/
theorem blk3_eq (c : Dev nD) (t : Fin cfg1.N) :
    (iblk1 V c 3 t : Vec Ideal S4096x256 .f32) = colsBlk (V c main_arg4) ⟨t.val % 56, Nat.mod_lt _ (by decide)⟩ := by
  obtain ⟨-, -, -, -, -, -, e6, e7, -⟩ := idx_facts t
  refine funext_ix2 (n0 := 4096) (n1 := 256) fun p j => ?_
  unfold iblk1 colsBlk
  rw [View.read_apply]
  show V c main_arg4 _ = V c main_arg4 _
  refine congrArg (V c main_arg4) (funext fun a => Fin.ext ?_)
  match a with
  | ⟨0, _⟩ => show win1_3.index t (0 : Fin 2) * 4096 + 1 * p.val = p.val; rw [e6]; omega
  | ⟨1, _⟩ => show win1_3.index t (1 : Fin 2) * 256 + 1 * j.val = 256 * (t.val % 56) + j.val; rw [e7]; omega

/-! ## The output buffer along a run of 56 points -/

/-- What a point leaves in the output buffer from what the buffer held: the body's payload. -/
def stepAt (c : Dev nD) (n : ℕ) (h : n < cfg1.N) (acc : S1024x4096.Idx → EReal) : S1024x4096.Idx → EReal :=
  k1_pay2 (F := Ideal) (iblk1 V c 0 ⟨n, h⟩) (iblk1 V c 1 ⟨n, h⟩) (iblk1 V c 2 ⟨n, h⟩) (iblk1 V c 3 ⟨n, h⟩) acc

/-- What the first point of a run leaves: the step from the zeros. -/
def resetAt (c : Dev nD) (n : ℕ) (h : n < cfg1.N) : S1024x4096.Idx → EReal := stepAt V c n h (k1_pay1 (F := Ideal))

theorem outs_reset (c : Dev nD) (n : ℕ) (h : n < cfg1.N) (h0 : n % 56 = 0) : outsAt1 V c n h = resetAt V c n h :=
  (outsAt1_A V c ⟨n, h⟩ h0).trans (out_A ..)

theorem outs_step (c : Dev nD) (n : ℕ) (h : n + 1 < cfg1.N) (hne : ¬(n + 1) % 56 = 0) :
    outsAt1 V c (n + 1) h = stepAt V c (n + 1) h (outsAt1 V c n (Nat.lt_of_succ_lt h)) :=
  (outsAt1_B V c ⟨n + 1, h⟩ hne).trans (out_B ..)

/-- Point `n`'s addend at `(r, h)`: row `1024·(n / 56) + r` of the normalized array through hidden block `n % 56`
    (a function of every natural: past the grid its values are never used). -/
def addend (c : Dev nD) (n : ℕ) : S1024x4096.Idx → EReal := fun i =>
  blockOut (V c main_v2) (V c main_arg2) (V c main_arg3) (V c main_arg4)
    ⟨n / 56 % 2, Nat.mod_lt _ (by decide)⟩ ⟨n % 56, Nat.mod_lt _ (by decide)⟩ (i 0) (i 1)

/-- A step adds the point's addend to what the buffer held. -/
theorem step_apply (c : Dev nD) (n : ℕ) (h : n < cfg1.N) (acc : S1024x4096.Idx → EReal) (i : S1024x4096.Idx) :
    stepAt V c n h acc i = acc i + addend V c n i := by
  obtain ⟨r, k, rfl⟩ : ∃ (r : Fin 1024) (k : Fin 4096), i = ix2 r k := ⟨i 0, i 1, eq_ix2 i⟩
  have hn : n < 112 := pt_lt ⟨n, h⟩
  unfold stepAt
  refine (Pay.gate_pay (iblk1 V c 0 ⟨n, h⟩) (iblk1 V c 1 ⟨n, h⟩) (iblk1 V c 2 ⟨n, h⟩) (iblk1 V c 3 ⟨n, h⟩) acc r k).trans ?_
  refine congrArg (acc (ix2 r k) + ·) ?_
  show downRow (fun q => iblk1 V c 0 ⟨n, h⟩ (ix2 r q)) (iblk1 V c 1 ⟨n, h⟩) (iblk1 V c 2 ⟨n, h⟩) (iblk1 V c 3 ⟨n, h⟩) k
    = blockOut (V c main_v2) (V c main_arg2) (V c main_arg3) (V c main_arg4)
        ⟨n / 56 % 2, Nat.mod_lt _ (by decide)⟩ ⟨n % 56, Nat.mod_lt _ (by decide)⟩ r k
  unfold blockOut
  rw [blk1_eq V c ⟨n, h⟩, blk2_eq V c ⟨n, h⟩, blk3_eq V c ⟨n, h⟩]
  refine congrArg (fun row => downRow row _ _ _ k) (funext fun q => ?_)
  rw [blk0_read V c ⟨n, h⟩ r q]
  refine congrArg (fun z => V c main_v2 (ix2 z q)) (Fin.ext ?_)
  show 1024 * (n / 56) + r.val = 1024 * (n / 56 % 2) + r.val
  omega

/-- AFTER THE LAST POINT OF A RUN the buffer holds, at every index, zero plus the sum of the run's 56 addends. -/
theorem outs_at_flush (c : Dev nD) (t : Fin cfg1.N) (hf : t.val % 56 = 55) (i : S1024x4096.Idx) :
    outsAt1 V c t.val t.isLt i = 0 + ∑ s ∈ Finset.range 56, addend V c (56 * (t.val / 56) + s) i := by
  have h' : 56 * (t.val / 56) + t.val % 56 < cfg1.N := by rw [Nat.div_add_mod]; exact t.isLt
  have e : outsAt1 V c t.val t.isLt = Pipeline.accAt (resetAt V c) (stepAt V c) (56 * (t.val / 56)) (t.val % 56) h' :=
    Pipeline.eq_accAt_of_mod (fun n hn => outsAt1 V c n hn) 56 (resetAt V c) (stepAt V c) (outs_reset V c) (outs_step V c)
      (by decide) t.val t.isLt h'
  have key := Pipeline.accAt_add_apply (ι := S1024x4096.Idx) (β := EReal) (resetAt V c) (stepAt V c) (fun _ => (0 : EReal))
    (addend V c) (56 * (t.val / 56)) 55
    (fun h i => by unfold resetAt; rw [step_apply, zero_at])
    (fun n h acc i _ _ => step_apply V c n h acc i)
    (t.val % 56) (by omega) h' i
  rw [e, key, hf]

/-! ## What is written back, and the array after the run -/

/-- WHAT THE LAST POINT OF A RUN WRITES BACK is its block of the gated layer of the arrays the region finds. -/
theorem flushed_eq (c : Dev nD) (t : Fin cfg1.N) (hf : (cfg1.win 4).flush t = true) :
    (dat1 V c).flushed 4 t
      = ((cfg1.win 4).blk t).view.read (Elt Ideal) (mlpArr (V c main_v2) (V c main_arg2) (V c main_arg3) (V c main_arg4)) := by
  have h55 : t.val % 56 = 55 := (flush1_4 t).mp hf
  have hN : t.val < 112 := pt_lt t
  show (cfg1.win 4).cut (grid1.coords t) ((dat1 V c).after 4 t) = _
  rw [after1_4 V c t]
  refine funext_ix2 (n0 := 1024) (n1 := 4096) fun r h => ?_
  refine (outs_at_flush V c t h55 (ix2 r h)).trans ?_
  obtain ⟨-, -, -, -, -, -, -, -, e8, e9⟩ := idx_facts t
  rw [View.read_apply]
  have hi : ((cfg1.win 4).blk t).view.emb (ix2 r h) = (ix2 (⟨1024 * (t.val / 56) + r.val, row_lt t r⟩ : Fin 2048) h : S2048x4096.Idx) :=
    funext fun a => Fin.ext (by
      match a with
      | ⟨0, _⟩ => show win1_4.index t (0 : Fin 2) * 1024 + 1 * r.val = 1024 * (t.val / 56) + r.val; rw [e8]; omega
      | ⟨1, _⟩ => show win1_4.index t (1 : Fin 2) * 4096 + 1 * h.val = h.val; rw [e9]; omega)
  rw [hi, zero_add, Finset.sum_range]
  unfold mlpArr
  show _ = downRow (fun k => V c main_v2 (ix2 ⟨1024 * (t.val / 56) + r.val, row_lt t r⟩ k)) (V c main_arg2) (V c main_arg3) (V c main_arg4) h
  rw [downRow_blocks]
  refine Finset.sum_congr rfl fun s _ => ?_
  have hs : s.val < 56 := s.isLt
  show blockOut (V c main_v2) (V c main_arg2) (V c main_arg3) (V c main_arg4)
      ⟨(56 * (t.val / 56) + s.val) / 56 % 2, Nat.mod_lt _ (by decide)⟩ ⟨(56 * (t.val / 56) + s.val) % 56, Nat.mod_lt _ (by decide)⟩ r h = _
  have e1 : (⟨(56 * (t.val / 56) + s.val) / 56 % 2, Nat.mod_lt _ (by decide)⟩ : Fin 2) = ⟨t.val / 56, by omega⟩ := Fin.ext (by show (56 * (t.val / 56) + s.val) / 56 % 2 = t.val / 56; omega)
  have e2 : (⟨(56 * (t.val / 56) + s.val) % 56, Nat.mod_lt _ (by decide)⟩ : Fin 56) = s := Fin.ext (by show (56 * (t.val / 56) + s.val) % 56 = s.val; omega)
  rw [e1, e2]
  rfl

/-- An index of the output array is in point `t`'s block iff its row is among the point's 1024. -/
theorem mem_blk (t : Fin cfg1.N) (i : S2048x4096.Idx) :
    i ∈ ((cfg1.win 4).blk t).view.set ↔ ∀ a : Fin 2, win1_4.index t a * S1024x4096.size a ≤ (i a).val
      ∧ (i a).val < win1_4.index t a * S1024x4096.size a + S1024x4096.size a := by
  show i ∈ ((View.whole main_v3).slice (win1_4.rect t)).set ↔ _
  rw [View.set_slice_whole, Rect.mem_set_unit]
  exact Iff.rfl

/-- THE ARRAY the second call leaves: the gated layer of what it found. -/
theorem final (c : Dev nD) :
    (dat1 V c).arrAt 4 cfg1.N = mlpArr (V c main_v2) (V c main_arg2) (V c main_arg3) (V c main_arg4) :=
  (dat1 V c).arrAt_eq_of_cover 4 _ (fun t hf => flushed_eq V c t hf) fun i => by
    have hi0 : (i 0).val < 2048 := (i 0).isLt
    have hi1 : (i 1).val < 4096 := (i 1).isLt
    have hN : cfg1.N = 112 := N_1
    have ht : 56 * ((i 0).val / 1024) + 55 < cfg1.N := by omega
    refine ⟨⟨56 * ((i 0).val / 1024) + 55, ht⟩, (flush1_4 _).mpr (by dsimp only; omega), ?_⟩
    rw [mem_blk]
    obtain ⟨-, -, -, -, -, -, -, -, e8, e9⟩ := idx_facts ⟨56 * ((i 0).val / 1024) + 55, ht⟩
    intro a
    match a with
    | ⟨0, _⟩ =>
      show win1_4.index _ (0 : Fin 2) * 1024 ≤ (i 0).val ∧ (i 0).val < win1_4.index _ (0 : Fin 2) * 1024 + 1024
      rw [e8]; dsimp only; omega
    | ⟨1, _⟩ =>
      show win1_4.index _ (1 : Fin 2) * 4096 ≤ (i 1).val ∧ (i 1).val < win1_4.index _ (1 : Fin 2) * 4096 + 4096
      rw [e9]; omega

end Cert.KernelIdeal.MlpValue

end
-- ==== Proof.Layers.lean ====
/-
  The kernel's program is two layers between three reshapes: the input batch read as rows, the weight vector as one
  row, the normalization, the gated layer, and the rows read back as a batch. Composed, index by index, that is
  `MlpSpec.result`: a reshape that drops or adds a leading axis of extent one reads the same entry.
-/
import proofs.«117751_j8169027797430_2_alg».proof.Proof.Spec
import Idealize.ShloMosaic.Lib.ValueLayout

noncomputable section

namespace Cert.MlpSpec

open Idealize.ShloMosaic Idealize.ShloMosaic.ValueIdx

theorem result_of_layers (x0 : Arr3 1 2048 4096) (x1 : (⟨1, ![4096]⟩ : Shape).Idx → EReal) (G U : Arr2 14336 4096) (D : Arr2 4096 14336)
    (h0 : (⟨3, ![1, 2048, 4096]⟩ : Shape).ShapeCasts ⟨2, ![2048, 4096]⟩)
    (h1 : (⟨1, ![4096]⟩ : Shape).ShapeCasts ⟨2, ![1, 4096]⟩)
    (h2 : (⟨2, ![2048, 4096]⟩ : Shape).ShapeCasts ⟨3, ![1, 2048, 4096]⟩) :
    shapeCast ⟨3, ![1, 2048, 4096]⟩
        (mlpArr (normArr (shapeCast ⟨2, ![2048, 4096]⟩ x0 h0) (shapeCast ⟨2, ![1, 4096]⟩ x1 h1)) G U D) h2
      = result x0 x1 G U D := by
  funext i
  obtain ⟨u, s, h, rfl⟩ : ∃ (u : Fin 1) (s : Fin 2048) (h : Fin 4096), i = ix3 u s h := ⟨i 0, i 1, i 2, eq_ix3 i⟩
  rw [shapeCast_ab_1ab_apply]
  show downRow (fun k => normed (shapeCast ⟨2, ![2048, 4096]⟩ x0 h0) (fun q => shapeCast ⟨2, ![1, 4096]⟩ x1 h1 (ix2 (0 : Fin 1) q)) s k) G U D h
    = downRow (normed (flat x0) (vec x1) s) G U D h
  refine congrArg (fun row => downRow row G U D h) (funext fun k => ?_)
  exact normed_congr _ _ _ _ s s (fun q => shapeCast_1ab_ab_apply x0 h0 s q) (fun q => shapeCast_a_1a_apply x1 h1 0 q) k

end Cert.MlpSpec

end
-- ==== Proof.RunValue.lean ====
/-
  The idealized kernel program, run: every weakly fair execution of @main terminates with the result array at
  `MlpSpec.result` of the argument arrays, and the arguments unchanged.

  @main is four segments — two reshapes, the normalization call, the gated-layer call, one reshape — and the buffer
  contents at each boundary are a fold from the launch memory. The run over the segments ends with every unscoped
  buffer at the last boundary's contents, the result's buffer among them; read back through the fold, the result is
  the reshape of what the second call left, which is the gated layer (`MlpValue.final`) of what the first call left,
  which is the normalization (`NormValue.final`) of the reshaped arguments; the weight matrices reach the second
  call as launched. `MlpSpec.result_of_layers` composes these.
-/
import proofs.«117751_j8169027797430_2_alg».proof.Proof.Gen.KernelIdeal.Frame
import proofs.«117751_j8169027797430_2_alg».proof.Proof.NormValue
import proofs.«117751_j8169027797430_2_alg».proof.Proof.MlpValue
import proofs.«117751_j8169027797430_2_alg».proof.Proof.Layers
import Idealize.ShloMosaic.Lib.StableHlo.Run

set_option maxRecDepth 16384

noncomputable section

namespace Cert.KernelIdeal.RunValue

open Cert.KernelIdeal Cert.KernelIdeal.Gen Cert.MlpSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-! ## The result's buffer at the last boundary, read back through the fold -/

/-- The last boundary's contents of the result's buffer are `MlpSpec.result` of the launch contents of the arguments. -/
theorem out_eq (c : Dev nD) :
    W4 m ρ c (Proc.devRef .tc main_v4)
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  -- the last reshape, of what the second call left
  have tail : W4 m ρ c (Proc.devRef .tc main_v4)
      = shapeCast S1x2048x4096 (W3 m ρ c (Proc.devRef .tc main_v3)) shapeCasts_S2048x4096_S1x2048x4096 := by
    show StableHlo.after hostOps2 (W3 m ρ c) (Proc.devRef .tc main_v4) = _
    after_results
    rfl
  -- the second call's output array
  have r1 : W3 m ρ c (Proc.devRef .tc main_v3)
      = mlpArr (V2 m ρ c main_v2) (V2 m ρ c main_arg2) (V2 m ρ c main_arg3) (V2 m ρ c main_arg4) :=
    (W3_arr m ρ c 4).trans (MlpValue.final (V2 m ρ) c)
  -- the first call's output array
  have r0 : V2 m ρ c main_v2 = normArr (V1 m ρ c main_v0) (V1 m ρ c main_v1) :=
    (W2_arr m ρ c 2).trans (NormValue.final (V1 m ρ) c)
  -- the weight matrices reach the second call as launched
  have a2 : V2 m ρ c main_arg2 = m ((c.tc : Thread nD τ).loc main_arg2) :=
    (W2_of_ne m ρ c main_arg2 (by decide)).trans (by
      show StableHlo.after hostOps0 (W0 m ρ c) (Proc.devRef .tc main_arg2) = _
      after_results)
  have a3 : V2 m ρ c main_arg3 = m ((c.tc : Thread nD τ).loc main_arg3) :=
    (W2_of_ne m ρ c main_arg3 (by decide)).trans (by
      show StableHlo.after hostOps0 (W0 m ρ c) (Proc.devRef .tc main_arg3) = _
      after_results)
  have a4 : V2 m ρ c main_arg4 = m ((c.tc : Thread nD τ).loc main_arg4) :=
    (W2_of_ne m ρ c main_arg4 (by decide)).trans (by
      show StableHlo.after hostOps0 (W0 m ρ c) (Proc.devRef .tc main_arg4) = _
      after_results)
  -- the two reshapes before the first call
  have v0 : V1 m ρ c main_v0 = shapeCast S2048x4096 (m ((c.tc : Thread nD τ).loc main_arg0)) shapeCasts_S1x2048x4096_S2048x4096 := by
    show StableHlo.after hostOps0 (W0 m ρ c) (Proc.devRef .tc main_v0) = _
    after_results
    rfl
  have v1 : V1 m ρ c main_v1 = shapeCast S1x4096 (m ((c.tc : Thread nD τ).loc main_arg1)) shapeCasts_S4096_S1x4096 := by
    show StableHlo.after hostOps0 (W0 m ρ c) (Proc.devRef .tc main_v1) = _
    after_results
    rfl
  rw [tail, r1, r0, a2, a3, a4, v0, v1]
  exact result_of_layers _ _ _ _ _ _ _ _

/-! ## The run -/

set_option backward.isDefEq.respectTransparency.types false in
/-- @main run over its four segments (the generated host segments, regions and launch data), the final state read at
    every unscoped buffer: the result's buffer at the last boundary's contents, each argument as launched. -/
theorem run_named : θ_run defs (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- THE KERNEL'S RUN: the result array at `MlpSpec.result` of the arguments, the arguments unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩) (run_named m ρ)

end Cert.KernelIdeal.RunValue

end
-- ==== Proof.lean ====
/-
  A fused RMS normalization and gated MLP (`silu(x·Gᵀ) · (x·Uᵀ)` contracted with `D`), as two Pallas kernels, against its jnp
  reference, over the extended reals.

  Both programs compute, at `(·, s, h)`: row `s` of `x` scaled by `(Σ_q x_q² / 4096 + ε)^(-1/2)` and weighted entry by
  entry; its projections `g_i`, `u_i` onto the 14336 rows of the gate and up matrices; and `Σ_i g_i · logistic(g_i) · u_i ·
  D_{h,i}` (`MlpSpec.result`). The reference writes `logistic` as `1 / (1 + exp(-g))`, which is its definition on the
  extended reals; the kernel normalizes 512 rows per grid point in its first call and, in its second, accumulates
  the last sum over 56 blocks of 256 hidden units in an output block that stays resident along the run — equal
  because addition of extended reals is commutative and associative (`MlpSpec.downRow_blocks`). Every change of
  float format is the identity here, and every literal is the same word on both sides, so the precondition (finite
  inputs) is never opened.

  The three frames are the generated ones (the reference's is its generated run with the result dropped); the
  idealization rewrote nothing, so `preserves` is `True`.
-/
import proofs.«117751_j8169027797430_2_alg».proof.Defs
import proofs.«117751_j8169027797430_2_alg».proof.Proof.Gen.Kernel
import proofs.«117751_j8169027797430_2_alg».proof.Proof.Gen.Kernel.Skeleton
import proofs.«117751_j8169027797430_2_alg».proof.Proof.Gen.Kernel.Launch
import proofs.«117751_j8169027797430_2_alg».proof.Proof.Gen.Kernel.Points
import proofs.«117751_j8169027797430_2_alg».proof.Proof.Gen.Kernel.Frame
import proofs.«117751_j8169027797430_2_alg».proof.Proof.Gen.KernelIdeal
import proofs.«117751_j8169027797430_2_alg».proof.Proof.Gen.KernelIdeal.Skeleton
import proofs.«117751_j8169027797430_2_alg».proof.Proof.Gen.KernelIdeal.Launch
import proofs.«117751_j8169027797430_2_alg».proof.Proof.Gen.KernelIdeal.Points
import proofs.«117751_j8169027797430_2_alg».proof.Proof.Gen.KernelIdeal.Frame
import proofs.«117751_j8169027797430_2_alg».proof.Proof.Gen.ReferenceIdeal
import proofs.«117751_j8169027797430_2_alg».proof.Proof.Gen.Pre_finite_inputs
import proofs.«117751_j8169027797430_2_alg».proof.Proof.RefRead
import proofs.«117751_j8169027797430_2_alg».proof.Proof.RunValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `MlpSpec.result` of their arguments, and the arguments agree. -/
theorem algebraic : Cert.algebraic_KernelIdeal_ReferenceIdeal := by
  intro m ρ m' ρ' _ hagree
  refine ⟨fun c => Cert.MlpSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _ _).trans ?_
  refine (Cert.ReferenceIdeal.RefValue.v17_eq_result _ _ _ _ _).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
